-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩

abbrev nBuf : Space → Nat
  | .hbm => 95
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x64, .f32⟩
  | .hbm, ⟨94, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  concatenates_S64_S64_S128_d0 : Shape.Concatenates [S64, S64] S128 0
  shapeCasts_S10000x128_S10000x128 : S10000x128.ShapeCasts S10000x128
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibMatProd.lean ====
/-
  General lemmas: the product of two matrices over the extended reals as one function read at an index.

  For an [a, k] array L and a [k, n] array R, `mm L R` is the [a, n] array whose entry (p, j) is the sum over q of
  L (p, q) · R (q, j).

  * `mm`, `mm_ix2`: the product and its entry;
  * `mm_congr`: entry (p, j) reads only row p of the left operand and column j of the right one, so a block of rows
    of the product is the product of the block of rows;
  * `hostDot_eq`: the host's plain product, whose dimension record contracts the left operand's columns against the
    right operand's rows, is `mm`;
  * `coreDot_eq`: a matrix-unit product into the zero accumulator, under the same record facts, is `mm`.
  Addition and multiplication on the extended reals are total, so none of this needs finiteness. Nothing here
  mentions a program: the extents are variables and the dimension records are hypotheses.
-/
import proofs.«161204_j43722767073850_2_alg».proof.Proof.LibAffine

noncomputable section

namespace Cert.LibMatProd

open Idealize.ShloMosaic Idealize.ShloMosaic.ValueIdx

variable {a k n : ℕ}

/-- The product of an [a, k] array by a [k, n] array: entry (p, j) is the sum over q of L (p, q) · R (q, j). -/
def mm (L : FVec Ideal ⟨2, ![a, k]⟩ .f32) (R : FVec Ideal ⟨2, ![k, n]⟩ .f32) : FVec Ideal ⟨2, ![a, n]⟩ .f32 :=
  fun i => ∑ q : Fin k, L (ix2 (i 0) q) * R (ix2 q (i 1))

theorem mm_ix2 (L : FVec Ideal ⟨2, ![a, k]⟩ .f32) (R : FVec Ideal ⟨2, ![k, n]⟩ .f32) (p : Fin a) (j : Fin n) :
    mm L R (ix2 p j) = ∑ q : Fin k, L (ix2 p q) * R (ix2 q j) := rfl

/-- Entry (p, j) of the product reads only row p of the left operand and column j of the right one. -/
theorem mm_congr {a' : ℕ} (L : FVec Ideal ⟨2, ![a, k]⟩ .f32) (R : FVec Ideal ⟨2, ![k, n]⟩ .f32)
    (L' : FVec Ideal ⟨2, ![a', k]⟩ .f32) (R' : FVec Ideal ⟨2, ![k, n]⟩ .f32) (p : Fin a) (p' : Fin a') (j : Fin n)
    (hl : ∀ q : Fin k, L (ix2 p q) = L' (ix2 p' q)) (hr : ∀ q : Fin k, R (ix2 q j) = R' (ix2 q j)) :
    mm L R (ix2 p j) = mm L' R' (ix2 p' j) := by
  rw [mm_ix2, mm_ix2]
  exact Finset.sum_congr rfl fun q _ => by rw [hl q, hr q]

/-- The host's plain product of an [a, k] by a [k, n] array is `mm`. -/
theorem hostDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    Host.dotGeneral D prec L R = mm L R := by
  funext i
  obtain ⟨p, j, rfl⟩ : ∃ (p : Fin a) (j : Fin n), i = ix2 p j := ⟨i 0, i 1, eq_ix2 i⟩
  rw [Cert.LibAffine.hostDot_ix2 D hr hs hl0 hl1 hr0 hr1, mm_ix2]

/-- A matrix-unit product of an [a, k] by a [k, n] array into the zero accumulator is `mm`. -/
theorem coreDot_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ .f32) (R : FVec Ideal ⟨2, ![k, n]⟩ .f32) :
    FloatOps.matmul D prec L R (constant ⟨2, ![a, n]⟩ .f32 0x00000000#32) = mm L R := by
  funext i
  obtain ⟨p, j, rfl⟩ : ∃ (p : Fin a) (j : Fin n), i = ix2 p j := ⟨i 0, i 1, eq_ix2 i⟩
  rw [Cert.LibAffine.coreDot_ix2 D hr hs hl0 hl1 hr0 hr1, mm_ix2]

end Cert.LibMatProd

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.RegionProduct.lean ====
/-
  What each of the two matrix-product regions leaves in its output array.

  A region runs over a grid of ten points. At point `t` it stages rows `t·10000 … t·10000 + 9999` of a
  `[100000, 128]` operand and the whole of a `[128, 128]` weight, multiplies them on the matrix unit into a zero
  accumulator, and writes the `[10000, 128]` result back as rows `t·10000 …` of the output. Entry `(p, j)` of a product
  reads only row `p` of the left operand, so block `t` of the product of the whole arrays IS the product of block `t`
  by the weight; the ten blocks tile the output, which therefore ends as the product of the two operand arrays.

  Both regions are stated at a parameter `V`, the buffers' contents when the region is entered, at the extended reals.
-/
import proofs.«161204_j43722767073850_2_alg».proof.Proof.Gen.KernelIdeal.Frame
import proofs.«161204_j43722767073850_2_alg».proof.Proof.LibMatProd
import proofs.«161204_j43722767073850_2_alg».proof.Proof.LibPlainDot

set_option maxRecDepth 16384

noncomputable section

namespace Cert.KernelIdeal.Product

open Idealize.ShloMosaic Idealize.ShloMosaic.TcCoe Idealize.ShloMosaic.ValueIdx Idealize.SL.Sem
open Cert.KernelIdeal Cert.KernelIdeal.Gen Cert.LibMatProd
open Idealize.ShloMosaic.Pipeline (Dat)

/-- The two zero offsets, as the constant function. -/
theorem zero_off : (![0, 0] : Fin 2 → Nat) = fun _ => 0 := funext fun a => by fin_cases a <;> rfl

/-! ## The block product's dimension record: left axis 1 against right axis 0, nothing batched -/

abbrev blockDot : DotDims S10000x128 S128x128 S10000x128 := dot_S10000x128_S128x128_S10000x128_1_0_0_1_n_n

theorem blockDot_rank : blockDot.contr.rank = 1 := Cert.LibPlainDot.contr_rank blockDot rfl
theorem blockDot_size : blockDot.contr.size ⟨0, by rw [blockDot_rank]; exact Nat.one_pos⟩ = 128 :=
  Cert.LibPlainDot.contr_size blockDot rfl
theorem blockDot_l0 : ∀ i q, (blockDot.lhsIdx i q 0).val = (i 0).val := Cert.LibPlainDot.lhs_row blockDot rfl rfl
theorem blockDot_l1 : ∀ i q, (blockDot.lhsIdx i q 1).val = (q ⟨0, by rw [blockDot_rank]; exact Nat.one_pos⟩).val :=
  Cert.LibPlainDot.lhs_col blockDot rfl
theorem blockDot_r0 : ∀ i q, (blockDot.rhsIdx i q 0).val = (q ⟨0, by rw [blockDot_rank]; exact Nat.one_pos⟩).val :=
  Cert.LibPlainDot.rhs_row blockDot rfl rfl
theorem blockDot_r1 : ∀ i q, (blockDot.rhsIdx i q 1).val = (i 1).val := Cert.LibPlainDot.rhs_col blockDot rfl rfl rfl rfl

/-- A product read at any index: the sum over `q` of the left operand's `(row, q)` times the right operand's `(q, column)`. -/
theorem mm_apply {a k n : ℕ} (L : FVec Ideal ⟨2, ![a, k]⟩ .f32) (R : FVec Ideal ⟨2, ![k, n]⟩ .f32) (i : (⟨2, ![a, n]⟩ : Shape).Idx) :
    mm L R i = ∑ q : Fin k, L (ix2 (i 0) q) * R (ix2 q (i 1)) := rfl

variable (V : (c : Dev nD) → (b : Ref sig .tc) → Buf (Elt Ideal) ((c : Thread nD τ).loc b))

/-! ## Region 0: `main_v30` ends as the product of `main_arg0` by `main_arg2` -/

/-- The body's stored value at entry `(p, j)` of a block: the sum over `q` of the row block's `(p, q)` times the
    weight's `(q, j)`. Narrowing the operands to a shorter float format changes nothing on the extended reals, and the
    matrix unit starts from the zero accumulator. -/
theorem pay0_apply (x0 : Vec Ideal S10000x128 .f32) (x1 : Vec Ideal S128x128 .f32) (j : S10000x128.Idx) :
    k0_pay1 (F := Ideal) x0 x1 j = ∑ q : Fin 128, x0 (ix2 (j 0) q) * x1 (ix2 q (j 1)) := by
  obtain ⟨p, k, rfl⟩ : ∃ (p : Fin 10000) (k : Fin 128), j = ix2 p k := ⟨j 0, j 1, eq_ix2 j⟩
  unfold k0_pay1

  refine (Cert.LibAffine.coreDot_ix2 blockDot blockDot_rank blockDot_size blockDot_l0 blockDot_l1 blockDot_r0 blockDot_r1
    none _ _ p k).trans ?_
  rfl

/-- How the three windows' blocks sit at a grid point: the row block and the output block have the same block row,
    everything else is block 0, and there are ten block rows. -/
theorem blocks0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row is some grid point's. -/
theorem block_rows0 : ∀ r : Fin 10, ∃ t : Fin cfg0.N, win0_2.index t = ![r.val, 0] :=
  (by decide +kernel : ∀ r : Fin 10, ∃ t : Fin grid0.N, win0_2.index t = ![r.val, 0])

/-- What grid point `t` writes back is block `t` of the product of the two operand arrays as the region finds them:
    row `p` of the block is row `t·10000 + p` of the product, which reads that same row of the left operand, and all
    of the right operand. -/
theorem flushed0 (c : Dev nD) (t : Fin cfg0.N) :
    (dat0 V c).flushed 2 t
      = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x128) zero_off]
  obtain ⟨e0, e1, e2, e3, e4, e5⟩ := blocks0 t
  funext j
  show k0_pay1 (iblk0 V c 0 t) (iblk0 V c 1 t) j = mm (V c main_arg0) (V c main_arg2) (((cfg0.win 2).blk t).view.emb j)
  refine (pay0_apply _ _ j).trans ?_
  rw [mm_apply]
  refine Finset.sum_congr rfl fun q _ => ?_
  have hA : iblk0 V c 0 t (ix2 (j 0) q) = V c main_arg0 (ix2 ((((cfg0.win 2).blk t).view.emb j) 0) q) := by
    show V c main_arg0 (((cfg0.win 0).blk t).view.emb (ix2 (j 0) q)) = _
    refine congrArg (V c main_arg0) ?_
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * q.val = q.val
      omega
  have hW : iblk0 V c 1 t (ix2 q (j 1)) = V c main_arg2 (ix2 q ((((cfg0.win 2).blk t).view.emb j) 1)) := by
    show V c main_arg2 (((cfg0.win 1).blk t).view.emb (ix2 q (j 1))) = _
    refine congrArg (V c main_arg2) ?_
    funext a; apply Fin.ext
    match a with
    | ⟨0, _⟩ =>
      show win0_1.index t (0 : Fin 2) * 128 + 1 * q.val = q.val
      omega
    | ⟨1, _⟩ =>
      show win0_1.index t (1 : Fin 2) * 128 + 1 * (j 1).val = win0_2.index t (1 : Fin 2) * 128 + 1 * (j 1).val
      omega
  rw [hA, hW]

/-- An entry of the output array lies in point `t`'s block exactly when each coordinate lies in the block's range. -/
theorem mem_block0 (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v30).slice (win0_2.rect t)).set ↔ _
  rw [View.set_slice_whole, Rect.mem_set_unit]
  exact Iff.rfl

/-- The ten blocks of 10000 rows tile the 100000 rows: row `r` lies in the block of point `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_rows0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after the region: the product of the two operand arrays as the region finds them. -/
theorem product0 (c : Dev nD) :
    (dat0 V c).arrAt 2 cfg0.N = mm (V c main_arg0) (V c main_arg2) :=
  (dat0 V c).arrAt_eq_of_cover 2 (mm (V c main_arg0) (V c main_arg2)) (fun t _ => flushed0 V c t) (cover0)

/-! ## Region 1: `main_v50` ends as the product of `main_v47` by `main_v48` -/

/-- The body's stored value at entry `(p, j)` of a block: the sum over `q` of the row block's `(p, q)` times the
    weight's `(q, j)`. Narrowing the operands to a shorter float format changes nothing on the extended reals, and the
    matrix unit starts from the zero accumulator. -/
theorem pay1_apply (x0 : Vec Ideal S10000x128 .f32) (x1 : Vec Ideal S128x128 .f32) (j : S10000x128.Idx) :
    k1_pay1 (F := Ideal) x0 x1 j = ∑ q : Fin 128, x0 (ix2 (j 0) q) * x1 (ix2 q (j 1)) := by
  obtain ⟨p, k, rfl⟩ : ∃ (p : Fin 10000) (k : Fin 128), j = ix2 p k := ⟨j 0, j 1, eq_ix2 j⟩
  unfold k1_pay1
  simp only [shapeCast_self]
  refine (Cert.LibAffine.coreDot_ix2 blockDot blockDot_rank blockDot_size blockDot_l0 blockDot_l1 blockDot_r0 blockDot_r1
    none _ _ p k).trans ?_
  rfl

/-- How the three windows' blocks sit at a grid point: the row block and the output block have the same block row,
    everything else is block 0, and there are ten block rows. -/
theorem blocks1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row is some grid point's. -/
theorem block_rows1 : ∀ r : Fin 10, ∃ t : Fin cfg1.N, win1_2.index t = ![r.val, 0] :=
  (by decide +kernel : ∀ r : Fin 10, ∃ t : Fin grid1.N, win1_2.index t = ![r.val, 0])

/-- What grid point `t` writes back is block `t` of the product of the two operand arrays as the region finds them:
    row `p` of the block is row `t·10000 + p` of the product, which reads that same row of the left operand, and all
    of the right operand. -/
theorem flushed1 (c : Dev nD) (t : Fin cfg1.N) :
    (dat1 V c).flushed 2 t
      = ((cfg1.win 2).blk t).view.read (Elt Ideal) (mm (V c main_v47) (V c main_v48)) := by
  show (cfg1.win 2).cut (grid1.coords t) ((dat1 V c).after 2 t) = _
  rw [after1_2]
  unfold out1_2
  rw [View.canon_unit_zero zero_off]
  simp only [View.ld_unit_zero (S := S10000x128) zero_off, View.ld_unit_zero (S := S128x128) zero_off]
  obtain ⟨e0, e1, e2, e3, e4, e5⟩ := blocks1 t
  funext j
  show k1_pay1 (iblk1 V c 0 t) (iblk1 V c 1 t) j = mm (V c main_v47) (V c main_v48) (((cfg1.win 2).blk t).view.emb j)
  refine (pay1_apply _ _ j).trans ?_
  rw [mm_apply]
  refine Finset.sum_congr rfl fun q _ => ?_
  have hA : iblk1 V c 0 t (ix2 (j 0) q) = V c main_v47 (ix2 ((((cfg1.win 2).blk t).view.emb j) 0) q) := by
    show V c main_v47 (((cfg1.win 0).blk t).view.emb (ix2 (j 0) q)) = _
    refine congrArg (V c main_v47) ?_
    funext a; apply Fin.ext
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * q.val = q.val
      omega
  have hW : iblk1 V c 1 t (ix2 q (j 1)) = V c main_v48 (ix2 q ((((cfg1.win 2).blk t).view.emb j) 1)) := by
    show V c main_v48 (((cfg1.win 1).blk t).view.emb (ix2 q (j 1))) = _
    refine congrArg (V c main_v48) ?_
    funext a; apply Fin.ext
    match a with
    | ⟨0, _⟩ =>
      show win1_1.index t (0 : Fin 2) * 128 + 1 * q.val = q.val
      omega
    | ⟨1, _⟩ =>
      show win1_1.index t (1 : Fin 2) * 128 + 1 * (j 1).val = win1_2.index t (1 : Fin 2) * 128 + 1 * (j 1).val
      omega
  rw [hA, hW]

/-- An entry of the output array lies in point `t`'s block exactly when each coordinate lies in the block's range. -/
theorem mem_block1 (t : Fin cfg1.N) (i : S100000x128.Idx) :
    i ∈ ((cfg1.win 2).blk t).view.set
      ↔ ∀ a : Fin 2, win1_2.index t a * S10000x128.size a ≤ (i a).val
          ∧ (i a).val < win1_2.index t a * S10000x128.size a + S10000x128.size a := by
  show i ∈ ((View.whole main_v50).slice (win1_2.rect t)).set ↔ _
  rw [View.set_slice_whole, Rect.mem_set_unit]
  exact Iff.rfl

/-- The ten blocks of 10000 rows tile the 100000 rows: row `r` lies in the block of point `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_rows1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The output array after the region: the product of the two operand arrays as the region finds them. -/
theorem product1 (c : Dev nD) :
    (dat1 V c).arrAt 2 cfg1.N = mm (V c main_v47) (V c main_v48) :=
  (dat1 V c).arrAt_eq_of_cover 2 (mm (V c main_v47) (V c main_v48)) (fun t _ => flushed1 V c t) (cover1)

end Cert.KernelIdeal.Product

end
-- ==== Proof.HostStretch.lean ====
/-
  The kernel program's host operations, one stretch at a time.

  Between the launch, the two matrix-product regions and the return the program runs three stretches of host
  operations. Each stretch is read here from ANY contents `W` of the buffers it starts from, and its results are named
  with the stages of the reference program (the generated module reads that program one operation at a time): the two
  programs spell the edge lists, the normalisation and the first layer with the same operations, so a stretch of the
  one applied to equal inputs IS the stage of the other.

  * before the first region: the source and target lists with the self-loops appended, and the edge normalisation
    `dinv[src] · dinv[dst]`, are functions of the edge array alone;
  * between the regions: the first layer `relu (Σ_e norm_e · h[src_e] + b1)` of the first product `h`, the two weights
    joined along their columns, and the two biases joined;
  * after the second region: the 128-wide aggregation of the second product, and its two 64-wide halves.
-/
import proofs.«161204_j43722767073850_2_alg».proof.Proof.Gen.KernelIdeal.Launch
import proofs.«161204_j43722767073850_2_alg».proof.Proof.RefReadPatched
import Idealize.ShloMosaic.Lib.StableHlo.Run

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-! ## Before the first region -/

/-- The buffers after the three stretches that precede the first region, from contents `W`. -/
abbrev afterPrologue (W : Valuation τ sig (Elt F)) : Valuation τ sig (Elt F) :=
  after hostOps0_2 (after hostOps0_1 (after hostOps0 W))

/-- The source list with the self-loops appended is the reference's, of the same edge array. -/
theorem prologue_src (W : Valuation τ sig (Elt F)) :
    afterPrologue W (Proc.devRef .tc main_v3) = Cert.ReferenceIdeal.ReadP.val_main_v3 (F := F) (W (Proc.devRef .tc main_arg1)) := by
  dsimp only [afterPrologue, hostOps0, hostOps0_1, hostOps0_2]
  after_results
  rfl

/-- The target list with the self-loops appended is the reference's. -/
theorem prologue_dst (W : Valuation τ sig (Elt F)) :
    afterPrologue W (Proc.devRef .tc main_v6) = Cert.ReferenceIdeal.ReadP.val_main_v6 (F := F) (W (Proc.devRef .tc main_arg1)) := by
  dsimp only [afterPrologue, hostOps0, hostOps0_1, hostOps0_2]
  after_results
  rfl

set_option maxHeartbeats 4000000 in
/-- The edge normalisation is the reference's. -/
theorem prologue_norm (W : Valuation τ sig (Elt F)) :
    afterPrologue W (Proc.devRef .tc main_v29) = Cert.ReferenceIdeal.ReadP.val_main_v29 (F := F) (W (Proc.devRef .tc main_arg1)) := by
  dsimp only [afterPrologue, hostOps0, hostOps0_1, hostOps0_2]
  after_results_simp
  rfl

/-- No operation before the first region writes an argument array. -/
theorem prologue_arg0 (W : Valuation τ sig (Elt F)) : afterPrologue W (Proc.devRef .tc main_arg0) = W (Proc.devRef .tc main_arg0) := by
  dsimp only [afterPrologue, hostOps0, hostOps0_1, hostOps0_2]; after_results
theorem prologue_arg2 (W : Valuation τ sig (Elt F)) : afterPrologue W (Proc.devRef .tc main_arg2) = W (Proc.devRef .tc main_arg2) := by
  dsimp only [afterPrologue, hostOps0, hostOps0_1, hostOps0_2]; after_results
theorem prologue_arg3 (W : Valuation τ sig (Elt F)) : afterPrologue W (Proc.devRef .tc main_arg3) = W (Proc.devRef .tc main_arg3) := by
  dsimp only [afterPrologue, hostOps0, hostOps0_1, hostOps0_2]; after_results
theorem prologue_arg4 (W : Valuation τ sig (Elt F)) : afterPrologue W (Proc.devRef .tc main_arg4) = W (Proc.devRef .tc main_arg4) := by
  dsimp only [afterPrologue, hostOps0, hostOps0_1, hostOps0_2]; after_results
theorem prologue_arg5 (W : Valuation τ sig (Elt F)) : afterPrologue W (Proc.devRef .tc main_arg5) = W (Proc.devRef .tc main_arg5) := by
  dsimp only [afterPrologue, hostOps0, hostOps0_1, hostOps0_2]; after_results
theorem prologue_arg6 (W : Valuation τ sig (Elt F)) : afterPrologue W (Proc.devRef .tc main_arg6) = W (Proc.devRef .tc main_arg6) := by
  dsimp only [afterPrologue, hostOps0, hostOps0_1, hostOps0_2]; after_results
theorem prologue_arg7 (W : Valuation τ sig (Elt F)) : afterPrologue W (Proc.devRef .tc main_arg7) = W (Proc.devRef .tc main_arg7) := by
  dsimp only [afterPrologue, hostOps0, hostOps0_1, hostOps0_2]; after_results

/-! ## Between the regions -/

/-- The buffers after the three stretches between the regions, from contents `W`. -/
abbrev afterMiddle (W : Valuation τ sig (Elt F)) : Valuation τ sig (Elt F) :=
  after hostOps1_2 (after hostOps1_1 (after hostOps1 W))

set_option maxHeartbeats 4000000 in
/-- The first layer. When the stretch starts from the first product, the edge lists, the normalisation and the first
    bias as the reference has them, it leaves the reference's first layer: gather the product's rows at the sources,
    scale by the normalisation, sum at the targets, add the bias, clamp at zero. -/
theorem middle_layer (W : Valuation τ sig (Elt F))
    (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x128, .f32⟩ : BufTy).Contents (Elt F))
    (x3 : (⟨Cert.ReferenceIdeal.S128, .f32⟩ : BufTy).Contents (Elt F))
    (hprod : W (Proc.devRef .tc main_v30) = Cert.ReferenceIdeal.ReadP.val_main_v30 (F := F) x0 x2)
    (hsrc : W (Proc.devRef .tc main_v3) = Cert.ReferenceIdeal.ReadP.val_main_v3 (F := F) x1)
    (hdst : W (Proc.devRef .tc main_v6) = Cert.ReferenceIdeal.ReadP.val_main_v6 (F := F) x1)
    (hnorm : W (Proc.devRef .tc main_v29) = Cert.ReferenceIdeal.ReadP.val_main_v29 (F := F) x1)
    (hbias : W (Proc.devRef .tc main_arg3) = x3) :
    afterMiddle W (Proc.devRef .tc main_v47) = Cert.ReferenceIdeal.ReadP.val_main_v47 (F := F) x0 x1 x2 x3 := by
  dsimp only [afterMiddle, hostOps1, hostOps1_1, hostOps1_2]
  after_results_simp
  rw [hprod, hsrc, hdst, hnorm, hbias]
  rfl

/-- The two second-layer weights joined along their columns. -/
theorem middle_weights (W : Valuation τ sig (Elt F)) :
    afterMiddle W (Proc.devRef .tc main_v48)
      = concatenate S128x128 1 [⟨S128x64, W (Proc.devRef .tc main_arg4)⟩, ⟨S128x64, W (Proc.devRef .tc main_arg6)⟩]
          concatenates_S128x64_S128x64_S128x128_d1 := by
  dsimp only [afterMiddle, hostOps1, hostOps1_1, hostOps1_2]
  after_results

/-- The two second-layer biases joined. -/
theorem middle_biases (W : Valuation τ sig (Elt F)) :
    afterMiddle W (Proc.devRef .tc main_v49)
      = concatenate S128 0 [⟨S64, W (Proc.devRef .tc main_arg5)⟩, ⟨S64, W (Proc.devRef .tc main_arg7)⟩]
          concatenates_S64_S64_S128_d0 := by
  dsimp only [afterMiddle, hostOps1, hostOps1_1, hostOps1_2]
  after_results

/-- The edge lists and the normalisation pass through. -/
theorem middle_src (W : Valuation τ sig (Elt F)) : afterMiddle W (Proc.devRef .tc main_v3) = W (Proc.devRef .tc main_v3) := by
  dsimp only [afterMiddle, hostOps1, hostOps1_1, hostOps1_2]; after_results
theorem middle_dst (W : Valuation τ sig (Elt F)) : afterMiddle W (Proc.devRef .tc main_v6) = W (Proc.devRef .tc main_v6) := by
  dsimp only [afterMiddle, hostOps1, hostOps1_1, hostOps1_2]; after_results
theorem middle_norm (W : Valuation τ sig (Elt F)) : afterMiddle W (Proc.devRef .tc main_v29) = W (Proc.devRef .tc main_v29) := by
  dsimp only [afterMiddle, hostOps1, hostOps1_1, hostOps1_2]; after_results

/-! ## After the second region -/

/-- The 128-wide second layer: gather the second product's rows at the sources, scale by the normalisation, sum at
    the targets, add the joined bias. -/
def wideLayer (src dst : (⟨S1700000, .i32⟩ : BufTy).Contents (Elt F)) (norm : (⟨S1700000, .f32⟩ : BufTy).Contents (Elt F))
    (prod : (⟨S100000x128, .f32⟩ : BufTy).Contents (Elt F)) (bias : (⟨S128, .f32⟩ : BufTy).Contents (Elt F)) :
    (⟨S100000x128, .f32⟩ : BufTy).Contents (Elt F) :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf
        (Host.gather gather_S100000x128_S1700000x1_S1700000x128_1_0_n_n_0_1_1128 prod
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src)))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1 (broadcastInDim S1x128 ![1] bcast_S128_S1x128_1 bias))

set_option maxHeartbeats 4000000 in
/-- The first result: columns 0 … 63 of the wide layer. -/
theorem epilogue_left (W : Valuation τ sig (Elt F)) :
    after hostOps2 W (Proc.devRef .tc main_v67)
      = extractStridedSlice S100000x64 ![0, 0]
          (wideLayer (W (Proc.devRef .tc main_v3)) (W (Proc.devRef .tc main_v6)) (W (Proc.devRef .tc main_v29))
            (W (Proc.devRef .tc main_v50)) (W (Proc.devRef .tc main_v49)))
          slices_S100000x128_S100000x64_0_0 := by
  dsimp only [hostOps2]
  after_results_simp
  rfl

set_option maxHeartbeats 4000000 in
/-- The second result: columns 64 … 127 of the wide layer. -/
theorem epilogue_right (W : Valuation τ sig (Elt F)) :
    after hostOps2 W (Proc.devRef .tc main_v68)
      = extractStridedSlice S100000x64 ![0, 64]
          (wideLayer (W (Proc.devRef .tc main_v3)) (W (Proc.devRef .tc main_v6)) (W (Proc.devRef .tc main_v29))
            (W (Proc.devRef .tc main_v50)) (W (Proc.devRef .tc main_v49)))
          slices_S100000x128_S100000x64_0_64 := by
  dsimp only [hostOps2]
  after_results_simp
  rfl

end Cert.KernelIdeal.Host

end
-- ==== Proof.KernelValue.lean ====
/-
  The kernel program's run with its two results named, and what they hold.

  The generated frame runs the program as nine segments — host stretches and the two product regions — and carries the
  buffers' contents at every boundary as a fold from the launch memory; its last boundary is every buffer's final
  contents. Here the same run is read for the two RESULT buffers as well as the arguments, and the fold is walked
  back: a buffer a stretch or a region does not write keeps its contents; each region's output array is the product of
  its two operand arrays; each stretch leaves the reference's stage of the same inputs. So, with `x0 … x7` the argument
  arrays at launch,

    * the first region's output is the reference's first product `x0 · x2`;
    * the second region's left operand is the reference's first layer, its right operand the two second-layer weights
      joined along their columns, its output their product;
    * the two results are the left and right halves of the 128-wide aggregation of that product.
-/
import proofs.«161204_j43722767073850_2_alg».proof.Proof.Gen.KernelIdeal.Frame
import proofs.«161204_j43722767073850_2_alg».proof.Proof.RegionProduct
import proofs.«161204_j43722767073850_2_alg».proof.Proof.HostStretch

set_option maxRecDepth 16384

noncomputable section

namespace Cert.KernelIdeal.Results

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibMatProd

/-! ## The run, with the results named -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each of the two result buffers at
    the last boundary's contents and the argument arrays as launched: the segments' run of the generated frame, its
    final state read at the result buffers too. -/
theorem run_results : θ_run defs (onTc (τ := τ) (main (F := F))) ⟨m, fun _ => 0, ρ⟩ (fun r => ∀ c : Dev nD,
      r.2.mem ((c.tc : Thread nD τ).loc main_v67) = W9 m ρ c (Proc.devRef .tc main_v67)
      ∧ r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v67 (by decide)),
       h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Run

/-! ## The boundaries' contents, at the extended reals -/

section Values

variable (m : (ℓ : Loc nD τ sig) → Buf (Elt Ideal) ℓ) (ρ : Dev nD → PrngReg) (c : Dev nD)

open Cert.ReferenceIdeal.ReadP in
/-- The reference's first product `x0 · x2` is the product of the two arrays, entry by entry a sum of products. -/
theorem ref_product (x0 : (⟨Cert.ReferenceIdeal.S100000x128, .f32⟩ : BufTy).Contents (Elt Ideal))
    (x2 : (⟨Cert.ReferenceIdeal.S128x128, .f32⟩ : BufTy).Contents (Elt Ideal)) :
    val_main_v30 (F := Ideal) x0 x2 = mm x0 x2 :=
  hostDot_eq Cert.ReferenceIdeal.dot_S100000x128_S128x128_S100000x128_1_0_0_1_n_n
    (Cert.LibPlainDot.contr_rank _ rfl) (Cert.LibPlainDot.contr_size _ rfl)
    (Cert.LibPlainDot.lhs_row _ rfl rfl) (Cert.LibPlainDot.lhs_col _ rfl)
    (Cert.LibPlainDot.rhs_row _ rfl rfl) (Cert.LibPlainDot.rhs_col _ rfl rfl rfl rfl) none x0 x2

/-- At the first region's entry the edge lists and the normalisation are the reference's, and the arguments are as
    launched. -/
theorem entry0_src : W3 m ρ c (Proc.devRef .tc main_v3) = Cert.ReferenceIdeal.ReadP.val_main_v3 (F := Ideal) (m ((c : Thread nD τ).loc main_arg1)) :=
  Host.prologue_src (W0 m ρ c)
theorem entry0_dst : W3 m ρ c (Proc.devRef .tc main_v6) = Cert.ReferenceIdeal.ReadP.val_main_v6 (F := Ideal) (m ((c : Thread nD τ).loc main_arg1)) :=
  Host.prologue_dst (W0 m ρ c)
theorem entry0_norm : W3 m ρ c (Proc.devRef .tc main_v29) = Cert.ReferenceIdeal.ReadP.val_main_v29 (F := Ideal) (m ((c : Thread nD τ).loc main_arg1)) :=
  Host.prologue_norm (W0 m ρ c)
theorem entry0_arg0 : W3 m ρ c (Proc.devRef .tc main_arg0) = m ((c : Thread nD τ).loc main_arg0) := Host.prologue_arg0 (W0 m ρ c)
theorem entry0_arg2 : W3 m ρ c (Proc.devRef .tc main_arg2) = m ((c : Thread nD τ).loc main_arg2) := Host.prologue_arg2 (W0 m ρ c)
theorem entry0_arg3 : W3 m ρ c (Proc.devRef .tc main_arg3) = m ((c : Thread nD τ).loc main_arg3) := Host.prologue_arg3 (W0 m ρ c)
theorem entry0_arg4 : W3 m ρ c (Proc.devRef .tc main_arg4) = m ((c : Thread nD τ).loc main_arg4) := Host.prologue_arg4 (W0 m ρ c)
theorem entry0_arg5 : W3 m ρ c (Proc.devRef .tc main_arg5) = m ((c : Thread nD τ).loc main_arg5) := Host.prologue_arg5 (W0 m ρ c)
theorem entry0_arg6 : W3 m ρ c (Proc.devRef .tc main_arg6) = m ((c : Thread nD τ).loc main_arg6) := Host.prologue_arg6 (W0 m ρ c)
theorem entry0_arg7 : W3 m ρ c (Proc.devRef .tc main_arg7) = m ((c : Thread nD τ).loc main_arg7) := Host.prologue_arg7 (W0 m ρ c)

/-- The first region leaves, in its output array, the reference's first product. -/
theorem exit0_product :
    W4 m ρ c (Proc.devRef .tc main_v30)
      = Cert.ReferenceIdeal.ReadP.val_main_v30 (F := Ideal) (m ((c : Thread nD τ).loc main_arg0)) (m ((c : Thread nD τ).loc main_arg2)) := by
  rw [ref_product]
  refine (W4_arr m ρ c 2).trans ?_
  refine (Product.product0 (V3 m ρ) c).trans ?_
  show mm (W3 m ρ c (Proc.devRef .tc main_arg0)) (W3 m ρ c (Proc.devRef .tc main_arg2)) = _
  rw [entry0_arg0, entry0_arg2]

/-- The first region writes its output array only. -/
theorem exit0_src : W4 m ρ c (Proc.devRef .tc main_v3) = W3 m ρ c (Proc.devRef .tc main_v3) := W4_of_ne m ρ c main_v3 (by decide)
theorem exit0_dst : W4 m ρ c (Proc.devRef .tc main_v6) = W3 m ρ c (Proc.devRef .tc main_v6) := W4_of_ne m ρ c main_v6 (by decide)
theorem exit0_norm : W4 m ρ c (Proc.devRef .tc main_v29) = W3 m ρ c (Proc.devRef .tc main_v29) := W4_of_ne m ρ c main_v29 (by decide)
theorem exit0_arg3 : W4 m ρ c (Proc.devRef .tc main_arg3) = W3 m ρ c (Proc.devRef .tc main_arg3) := W4_of_ne m ρ c main_arg3 (by decide)
theorem exit0_arg4 : W4 m ρ c (Proc.devRef .tc main_arg4) = W3 m ρ c (Proc.devRef .tc main_arg4) := W4_of_ne m ρ c main_arg4 (by decide)
theorem exit0_arg5 : W4 m ρ c (Proc.devRef .tc main_arg5) = W3 m ρ c (Proc.devRef .tc main_arg5) := W4_of_ne m ρ c main_arg5 (by decide)
theorem exit0_arg6 : W4 m ρ c (Proc.devRef .tc main_arg6) = W3 m ρ c (Proc.devRef .tc main_arg6) := W4_of_ne m ρ c main_arg6 (by decide)
theorem exit0_arg7 : W4 m ρ c (Proc.devRef .tc main_arg7) = W3 m ρ c (Proc.devRef .tc main_arg7) := W4_of_ne m ρ c main_arg7 (by decide)

/-- At the second region's entry its left operand is the reference's first layer. -/
theorem entry1_layer :
    W7 m ρ c (Proc.devRef .tc main_v47)
      = Cert.ReferenceIdeal.ReadP.val_main_v47 (F := Ideal) (m ((c : Thread nD τ).loc main_arg0)) (m ((c : Thread nD τ).loc main_arg1))
          (m ((c : Thread nD τ).loc main_arg2)) (m ((c : Thread nD τ).loc main_arg3)) :=
  Host.middle_layer (W4 m ρ c) _ _ _ _ (exit0_product m ρ c) ((exit0_src m ρ c).trans (entry0_src m ρ c))
    ((exit0_dst m ρ c).trans (entry0_dst m ρ c)) ((exit0_norm m ρ c).trans (entry0_norm m ρ c))
    ((exit0_arg3 m ρ c).trans (entry0_arg3 m ρ c))

/-- Its right operand is the two second-layer weights joined along their columns. -/
theorem entry1_weights :
    W7 m ρ c (Proc.devRef .tc main_v48)
      = concatenate S128x128 1 [⟨S128x64, m ((c : Thread nD τ).loc main_arg4)⟩, ⟨S128x64, m ((c : Thread nD τ).loc main_arg6)⟩]
          concatenates_S128x64_S128x64_S128x128_d1 := by
  refine (Host.middle_weights (W4 m ρ c)).trans ?_
  rw [exit0_arg4, exit0_arg6, entry0_arg4, entry0_arg6]

theorem entry1_biases :
    W7 m ρ c (Proc.devRef .tc main_v49)
      = concatenate S128 0 [⟨S64, m ((c : Thread nD τ).loc main_arg5)⟩, ⟨S64, m ((c : Thread nD τ).loc main_arg7)⟩]
          concatenates_S64_S64_S128_d0 := by
  refine (Host.middle_biases (W4 m ρ c)).trans ?_
  rw [exit0_arg5, exit0_arg7, entry0_arg5, entry0_arg7]

theorem entry1_src : W7 m ρ c (Proc.devRef .tc main_v3) = Cert.ReferenceIdeal.ReadP.val_main_v3 (F := Ideal) (m ((c : Thread nD τ).loc main_arg1)) :=
  (Host.middle_src (W4 m ρ c)).trans ((exit0_src m ρ c).trans (entry0_src m ρ c))
theorem entry1_dst : W7 m ρ c (Proc.devRef .tc main_v6) = Cert.ReferenceIdeal.ReadP.val_main_v6 (F := Ideal) (m ((c : Thread nD τ).loc main_arg1)) :=
  (Host.middle_dst (W4 m ρ c)).trans ((exit0_dst m ρ c).trans (entry0_dst m ρ c))
theorem entry1_norm : W7 m ρ c (Proc.devRef .tc main_v29) = Cert.ReferenceIdeal.ReadP.val_main_v29 (F := Ideal) (m ((c : Thread nD τ).loc main_arg1)) :=
  (Host.middle_norm (W4 m ρ c)).trans ((exit0_norm m ρ c).trans (entry0_norm m ρ c))

/-- The second region leaves, in its output array, the product of the first layer by the joined weights. -/
theorem exit1_product :
    W8 m ρ c (Proc.devRef .tc main_v50)
      = mm (Cert.ReferenceIdeal.ReadP.val_main_v47 (F := Ideal) (m ((c : Thread nD τ).loc main_arg0)) (m ((c : Thread nD τ).loc main_arg1))
              (m ((c : Thread nD τ).loc main_arg2)) (m ((c : Thread nD τ).loc main_arg3)))
          (concatenate S128x128 1 [⟨S128x64, m ((c : Thread nD τ).loc main_arg4)⟩, ⟨S128x64, m ((c : Thread nD τ).loc main_arg6)⟩]
            concatenates_S128x64_S128x64_S128x128_d1) := by
  refine (W8_arr m ρ c 2).trans ?_
  refine (Product.product1 (V7 m ρ) c).trans ?_
  show mm (W7 m ρ c (Proc.devRef .tc main_v47)) (W7 m ρ c (Proc.devRef .tc main_v48)) = _
  rw [entry1_layer, entry1_weights]

theorem exit1_src : W8 m ρ c (Proc.devRef .tc main_v3) = W7 m ρ c (Proc.devRef .tc main_v3) := W8_of_ne m ρ c main_v3 (by decide)
theorem exit1_dst : W8 m ρ c (Proc.devRef .tc main_v6) = W7 m ρ c (Proc.devRef .tc main_v6) := W8_of_ne m ρ c main_v6 (by decide)
theorem exit1_norm : W8 m ρ c (Proc.devRef .tc main_v29) = W7 m ρ c (Proc.devRef .tc main_v29) := W8_of_ne m ρ c main_v29 (by decide)
theorem exit1_biases : W8 m ρ c (Proc.devRef .tc main_v49) = W7 m ρ c (Proc.devRef .tc main_v49) := W8_of_ne m ρ c main_v49 (by decide)

/-- The 128-wide aggregation the two results are cut from: of the second product, over the reference's edge lists and
    normalisation, with the joined bias. -/
def wide : (⟨S100000x128, .f32⟩ : BufTy).Contents (Elt Ideal) :=
  Host.wideLayer (F := Ideal)
    (Cert.ReferenceIdeal.ReadP.val_main_v3 (F := Ideal) (m ((c : Thread nD τ).loc main_arg1)))
    (Cert.ReferenceIdeal.ReadP.val_main_v6 (F := Ideal) (m ((c : Thread nD τ).loc main_arg1)))
    (Cert.ReferenceIdeal.ReadP.val_main_v29 (F := Ideal) (m ((c : Thread nD τ).loc main_arg1)))
    (mm (Cert.ReferenceIdeal.ReadP.val_main_v47 (F := Ideal) (m ((c : Thread nD τ).loc main_arg0)) (m ((c : Thread nD τ).loc main_arg1))
          (m ((c : Thread nD τ).loc main_arg2)) (m ((c : Thread nD τ).loc main_arg3)))
      (concatenate S128x128 1 [⟨S128x64, m ((c : Thread nD τ).loc main_arg4)⟩, ⟨S128x64, m ((c : Thread nD τ).loc main_arg6)⟩]
        concatenates_S128x64_S128x64_S128x128_d1))
    (concatenate S128 0 [⟨S64, m ((c : Thread nD τ).loc main_arg5)⟩, ⟨S64, m ((c : Thread nD τ).loc main_arg7)⟩]
      concatenates_S64_S64_S128_d0)

/-- The first result is columns 0 … 63 of the wide aggregation. -/
theorem left_result :
    W9 m ρ c (Proc.devRef .tc main_v67)
      = extractStridedSlice S100000x64 ![0, 0] (wide m c) slices_S100000x128_S100000x64_0_0 := by
  refine (Host.epilogue_left (W8 m ρ c)).trans ?_
  rw [exit1_src, exit1_dst, exit1_norm, exit1_biases, exit1_product, entry1_src, entry1_dst, entry1_norm, entry1_biases]
  rfl

/-- The second result is columns 64 … 127 of the wide aggregation. -/
theorem right_result :
    W9 m ρ c (Proc.devRef .tc main_v68)
      = extractStridedSlice S100000x64 ![0, 64] (wide m c) slices_S100000x128_S100000x64_0_64 := by
  refine (Host.epilogue_right (W8 m ρ c)).trans ?_
  rw [exit1_src, exit1_dst, exit1_norm, exit1_biases, exit1_product, entry1_src, entry1_dst, entry1_norm, entry1_biases]
  rfl

end Values

end Cert.KernelIdeal.Results

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.LibRowScatter.lean ====
/-
  A row scatter-add read at an index.

  Rows `[E, C]` are accumulated into a table `[N, C]` at `E` start indices (an array `[E, 1]`): update row `e` goes to
  the table's row at the `e`-th start index, read signed and not clamped; a row whose start index is not a row of the
  table is dropped. On the extended reals the accumulated table is, entry by entry, a sum over the edges:

  * `lands_iff`: update entry `(e, c')` lands on table entry `(n, c)` exactly when the `e`-th start index, read
    signed, is `n` and `c' = c`;
  * `rowScatterAdd_apply`: entry `(n, c)` of the result is the operand's entry plus the sum over all edges `e` whose
    start index is `n` of update entry `(e, c)`.

  In particular column `c` of the result reads only column `c` of the operand and of the updates, whatever the width
  `C` is. Sums on the extended reals are total, so nothing here needs finiteness. Nothing here mentions a program:
  the extents are variables.
-/
import proofs.«161204_j43722767073850_2_alg».proof.Proof.LibSegmentSum

noncomputable section

open scoped BigOperators

namespace Idealize.ShloMosaic.RowScatter

open Idealize.ShloMosaic Idealize.ShloMosaic.ValueIdx Idealize.ShloMosaic.SegmentSum

variable {N E C w : Nat}

private theorem fin2_one_ne_zero : ¬((1 : Fin 2) = 0) := by decide

/-- On the row axis the window starts at the start index, read signed. -/
theorem start_row (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at zero: the start indices name rows only. -/
theorem start_col (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  intro h
  exact fin2_one_ne_zero (List.mem_singleton.mp h)

/-- The row axis is inserted: the window has no extent along it. -/
theorem window_row (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := by
  unfold ScatterDims.window
  rw [dif_neg]
  intro hmem
  have := (List.mem_filter.mp hmem).2
  simp at this

/-- Along the columns the window coordinate is the update's column. -/
theorem window_col (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := by
  have h1 : (1 : Fin 2) ∈ (rowScatterDims N E C wf).sKept := by
    refine List.mem_filter.mpr ⟨List.mem_finRange _, ?_⟩
    simp
  unfold ScatterDims.window
  rw [dif_pos h1]
  rfl

/-- Where an update entry lands: entry `(e, c')` of the updates goes to entry `(n, c)` of the table exactly when the
    `e`-th start index, read signed, is `n`, and `c' = c`. -/
theorem lands_iff (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e 0)).toInt = (n.val : Int) ∧ c' = c := by
  have hs0 := start_row wf idx (ix2 e c')
  have hs1 := start_col wf idx (ix2 e c')
  have hw0 := window_row wf (ix2 e c')
  have hw1 := window_col wf (ix2 e c')
  have he : (ix2 e c' : (⟨2, ![E, C]⟩ : Shape).Idx) 0 = e := rfl
  have hc : ((ix2 e c' : (⟨2, ![E, C]⟩ : Shape).Idx) 1).val = c'.val := rfl
  rw [he] at hs0
  rw [hc] at hw1
  unfold ScatterDims.resultIdx?
  constructor
  · intro h
    split at h
    · rename_i hall
      have hi := Option.some.inj h
      have h0 : ((rowScatterDims N E C wf).start (ix2 e c') idx 0
          + ((rowScatterDims N E C wf).window (ix2 e c') 0 : Int)).toNat = n.val := by
        have := congrArg (fun f : (⟨2, ![N, C]⟩ : Shape).Idx => (f 0).val) hi
        exact this
      have h1 : ((rowScatterDims N E C wf).start (ix2 e c') idx 1
          + ((rowScatterDims N E C wf).window (ix2 e c') 1 : Int)).toNat = c.val := by
        have := congrArg (fun f : (⟨2, ![N, C]⟩ : Shape).Idx => (f 1).val) hi
        exact this
      have hnn := (hall 0).1
      rw [hs0, hw0] at h0 hnn
      rw [hs1, hw1] at h1
      refine ⟨by omega, Fin.ext (by omega)⟩
    · exact absurd h (by simp)
  · rintro ⟨hrow, rfl⟩
    have hnlt : n.val < N := n.isLt
    have hclt : c'.val < C := c'.isLt
    have hall : ∀ a : Fin (⟨2, ![N, C]⟩ : Shape).rank,
        0 ≤ (rowScatterDims N E C wf).start (ix2 e c') idx a + ((rowScatterDims N E C wf).window (ix2 e c') a : Int)
        ∧ (rowScatterDims N E C wf).start (ix2 e c') idx a + ((rowScatterDims N E C wf).window (ix2 e c') a : Int)
            < (⟨2, ![N, C]⟩ : Shape).size a := by
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0, hrow]; constructor <;> omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; constructor <;> omega
    rw [dif_pos hall]
    refine congrArg some ?_
    funext a
    refine Fin.ext ?_
    match a with
    | ⟨0, _⟩ =>
      show ((rowScatterDims N E C wf).start (ix2 e c') idx 0 + ((rowScatterDims N E C wf).window (ix2 e c') 0 : Int)).toNat = n.val
      rw [hs0, hw0, hrow]; omega
    | ⟨1, _⟩ =>
      show ((rowScatterDims N E C wf).start (ix2 e c') idx 1 + ((rowScatterDims N E C wf).window (ix2 e c') 1 : Int)).toNat = c'.val
      rw [hs1, hw1]; omega

/-- THE READING. Entry `(n, c)` of a row scatter-add is the operand's entry plus the sum, over the edges `e` whose start
    index read signed is `n`, of update entry `(e, c)`. -/
theorem rowScatterAdd_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) x idx u (ix2 n c)
      = x (ix2 n c) + ∑ e : Fin E, if (idx (ix2 e 0)).toInt = (n.val : Int) then u (ix2 e c) else 0 := by
  classical
  unfold Ideal.hostScatterAdd
  refine congrArg (x (ix2 n c) + ·) ?_
  rw [Finset.sum_filter, sum_idx2]
  refine Finset.sum_congr rfl fun e _ => ?_
  by_cases hrow : (idx (ix2 e 0)).toInt = (n.val : Int)
  · rw [if_pos hrow]
    rw [Finset.sum_eq_single c]
    · rw [if_pos ((lands_iff wf idx e c n c).mpr ⟨hrow, rfl⟩)]
    · intro c' _ hne
      rw [if_neg]
      intro h
      exact hne ((lands_iff wf idx e c' n c).mp h).2
    · intro h; exact absurd (Finset.mem_univ c) h
  · rw [if_neg hrow]
    refine Finset.sum_eq_zero fun c' _ => ?_
    rw [if_neg]
    intro h
    exact hrow ((lands_iff wf idx e c' n c).mp h).1

end Idealize.ShloMosaic.RowScatter

end
-- ==== Proof.LibGraphAggregate.lean ====
/-
  One graph-convolution aggregation read at an index.

  A table `P` of shape `[N, C]` is gathered row by row at `E` source indices, every gathered row is scaled by its edge's
  weight, the scaled rows are summed into an `[N, C]` table of zeros at `E` target indices, and a bias row is added to
  every row. On the extended reals entry `(n, c)` of the result is

      (0 + the sum, over the edges e whose target is n, of P (source e, c) · weight e) + bias c,

  the source read signed and clamped into the table, the target read signed and not clamped (an edge whose target is
  not a row of the table is dropped). Column `c` of the result reads only column `c` of `P` and entry `c` of the bias, so
  two such aggregations of different widths over the same edges agree wherever their tables and biases agree column by
  column. Sums on the extended reals are total: nothing here needs finiteness. Nothing here mentions a program: the
  extents are variables and the shape relations are hypotheses.
-/
import proofs.«161204_j43722767073850_2_alg».proof.Proof.LibSegmentSum
import proofs.«161204_j43722767073850_2_alg».proof.Proof.LibRowScatter
import Idealize.ShloMosaic.Lib.Pipeline.Value
import Idealize.ShloMosaic.Lib.ValueIdx

noncomputable section

open scoped BigOperators

namespace Idealize.ShloMosaic.GraphAggregate

open Idealize.ShloMosaic Idealize.ShloMosaic.ValueIdx Idealize.ShloMosaic.SegmentSum Idealize.ShloMosaic.RowScatter

variable {N E C : Nat}

/-- Entry `(n, c)` of the aggregation: the start value, plus the sum over the edges landing on `n` of the table's entry
    at the edge's source and column `c` times the edge's weight, plus the bias. -/
def aggregateAt (hN : 0 < N) (P : (⟨2, ![N, C]⟩ : Shape).Idx → EReal) (srcIdx dstIdx : IVec ⟨2, ![E, 1]⟩ 32)
    (weight : (⟨1, ![E]⟩ : Shape).Idx → EReal) (z : EReal) (bias : (⟨1, ![C]⟩ : Shape).Idx → EReal) (n : Fin N) (c : Fin C) : EReal :=
  (z + ∑ e : Fin E, if (dstIdx (ix2 e 0)).toInt = (n.val : Int)
      then P (ix2 (clampRow N hN (srcIdx (ix2 e 0))) c) * weight (ix1 e) else 0) + bias (ix1 c)

/-- Column locality: two aggregations over the same edges, of tables and biases that agree on one column each, agree
    on those columns — whatever the two widths are. -/
theorem aggregateAt_congr {C' : Nat} (hN : 0 < N) (P : (⟨2, ![N, C]⟩ : Shape).Idx → EReal) (P' : (⟨2, ![N, C']⟩ : Shape).Idx → EReal)
    (srcIdx dstIdx : IVec ⟨2, ![E, 1]⟩ 32) (weight : (⟨1, ![E]⟩ : Shape).Idx → EReal) (z : EReal)
    (bias : (⟨1, ![C]⟩ : Shape).Idx → EReal) (bias' : (⟨1, ![C']⟩ : Shape).Idx → EReal) (n : Fin N) (c : Fin C) (c' : Fin C')
    (hP : ∀ r : Fin N, P (ix2 r c) = P' (ix2 r c')) (hb : bias (ix1 c) = bias' (ix1 c')) :
    aggregateAt hN P srcIdx dstIdx weight z bias n c = aggregateAt hN P' srcIdx dstIdx weight z bias' n c' := by
  unfold aggregateAt
  rw [hb]
  refine congrArg (fun s => (z + s) + bias' (ix1 c')) ?_
  refine Finset.sum_congr rfl fun e _ => ?_
  rw [hP]

/-- A weight laid along a column `[E, 1]` and spread over the columns of `[E, C]` reads, at `(e, c)`, the weight of
    edge `e`. -/
theorem spread_weight_apply {α : Type}
    (hcol : (⟨1, ![E]⟩ : Shape).BroadcastsInDim ⟨2, ![E, 1]⟩ ![0])
    (hwide : (⟨2, ![E, 1]⟩ : Shape).BroadcastsInDim ⟨2, ![E, C]⟩ ![0, 1])
    (weight : (⟨1, ![E]⟩ : Shape).Idx → α) (e : Fin E) (c : Fin C) :
    broadcastInDim ⟨2, ![E, C]⟩ ![0, 1] hwide (broadcastInDim ⟨2, ![E, 1]⟩ ![0] hcol weight) (ix2 e c) = weight (ix1 e) := by
  have he := e.isLt
  rw [broadcastInDim_apply ![0, 1] hwide _ (ix2 e c) (ix2 e (0 : Fin 1)) (fun a => by
    match a with
    | ⟨0, _⟩ => show e.val = if E = 1 then 0 else e.val; split <;> omega
    | ⟨1, _⟩ => show 0 = if (1 : Nat) = 1 then 0 else c.val; rw [if_pos rfl])]
  exact broadcastInDim_apply ![0] hcol weight (ix2 e (0 : Fin 1)) (ix1 e) (fun a => by
    match a with
    | ⟨0, _⟩ => show e.val = if E = 1 then 0 else e.val; split <;> omega)

/-- A bias laid along a row `[1, C]` and spread over the rows of `[N, C]` reads, at `(n, c)`, the bias of column `c`. -/
theorem spread_bias_apply {α : Type}
    (hrow : (⟨1, ![C]⟩ : Shape).BroadcastsInDim ⟨2, ![1, C]⟩ ![1])
    (hrows : (⟨2, ![1, C]⟩ : Shape).BroadcastsInDim ⟨2, ![N, C]⟩ ![0, 1])
    (bias : (⟨1, ![C]⟩ : Shape).Idx → α) (n : Fin N) (c : Fin C) :
    broadcastInDim ⟨2, ![N, C]⟩ ![0, 1] hrows (broadcastInDim ⟨2, ![1, C]⟩ ![1] hrow bias) (ix2 n c) = bias (ix1 c) := by
  have hc := c.isLt
  rw [broadcastInDim_apply ![0, 1] hrows _ (ix2 n c) (ix2 (0 : Fin 1) c) (fun a => by
    match a with
    | ⟨0, _⟩ => show 0 = if (1 : Nat) = 1 then 0 else n.val; rw [if_pos rfl]
    | ⟨1, _⟩ => show c.val = if C = 1 then 0 else c.val; split <;> omega)]
  exact broadcastInDim_apply ![1] hrow bias (ix2 (0 : Fin 1) c) (ix1 c) (fun a => by
    match a with
    | ⟨0, _⟩ => show c.val = if C = 1 then 0 else c.val; split <;> omega)

/-- THE READING. The chain of host operations — a table of one scalar spread over `[N, C]`, the row gather, the weights
    spread over the columns, the product, the row scatter-add, the bias spread over the rows, the sum — at entry
    `(n, c)` is `aggregateAt` from the scalar's value. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hfill : (⟨0, ![]⟩ : Shape).BroadcastsInDim ⟨2, ![N, C]⟩ ![])
    (hcol : (⟨1, ![E]⟩ : Shape).BroadcastsInDim ⟨2, ![E, 1]⟩ ![0])
    (hwide : (⟨2, ![E, 1]⟩ : Shape).BroadcastsInDim ⟨2, ![E, C]⟩ ![0, 1])
    (hrow : (⟨1, ![C]⟩ : Shape).BroadcastsInDim ⟨2, ![1, C]⟩ ![1])
    (hrows : (⟨2, ![1, C]⟩ : Shape).BroadcastsInDim ⟨2, ![N, C]⟩ ![0, 1])
    (P : FVec Ideal ⟨2, ![N, C]⟩ .f32) (srcIdx dstIdx : IVec ⟨2, ![E, 1]⟩ 32) (weight : FVec Ideal ⟨1, ![E]⟩ .f32)
    (z : FVec Ideal ⟨0, ![]⟩ .f32) (bias : FVec Ideal ⟨1, ![C]⟩ .f32) (n : Fin N) (c : Fin C) :
    addf
        (Host.scatterAdd (rowScatterDims N E C wfs) (broadcastInDim ⟨2, ![N, C]⟩ ![] hfill z) dstIdx
          (mulf (Host.gather (rowGatherDims N E C wfg) P srcIdx)
            (broadcastInDim ⟨2, ![E, C]⟩ ![0, 1] hwide (broadcastInDim ⟨2, ![E, 1]⟩ ![0] hcol weight))))
        (broadcastInDim ⟨2, ![N, C]⟩ ![0, 1] hrows (broadcastInDim ⟨2, ![1, C]⟩ ![1] hrow bias)) (ix2 n c)
      = aggregateAt hN P srcIdx dstIdx weight (z ix0) bias n c := by
  rw [addf_apply, spread_bias_apply hrow hrows bias n c]
  show Ideal.hostScatterAdd (rowScatterDims N E C wfs) _ dstIdx _ (ix2 n c) + _ = _
  rw [rowScatterAdd_apply wfs]
  unfold aggregateAt
  refine congrArg (· + bias (ix1 c)) ?_
  have hz : broadcastInDim ⟨2, ![N, C]⟩ ![] hfill z (ix2 n c) = z ix0 :=
    broadcastInDim_apply ![] hfill z (ix2 n c) ix0 (fun a => a.elim0)
  rw [hz]
  refine congrArg (z ix0 + ·) ?_
  refine Finset.sum_congr rfl fun e _ => ?_
  by_cases hrow' : (dstIdx (ix2 e 0)).toInt = (n.val : Int)
  · rw [if_pos hrow', if_pos hrow', mulf_apply, rowGather_apply hN wfg, spread_weight_apply hcol hwide weight e c]
    rfl
  · rw [if_neg hrow', if_neg hrow']

end Idealize.ShloMosaic.GraphAggregate

end
-- ==== Proof.LibConcat2.lean ====
/-
  General lemmas: two rank-2 arrays joined along one axis, read at an index written with `ix2`.

  * `[a, n]` and `[a, m]` joined along axis 1 into `[a, c]`: column `k < n` of the result is column `k` of the first
    piece, column `n + k` is column `k` of the second;
  * `[n, b]` and `[m, b]` joined along axis 0 into `[c, b]`: row `k < n` is row `k` of the first piece, row `n + k` is
    row `k` of the second;
  * a sum over `Fin c` with `c = n + n` as the sum over the first `n` positions plus the sum over the last `n`.
  Nothing here mentions a program: the extents are variables and the shape relation is a hypothesis.
-/
import Idealize.ShloMosaic.Lib.Pipeline.Value
import Idealize.ShloMosaic.Lib.ValueIdx

noncomputable section

namespace Cert.LibConcat2

open Idealize.ShloMosaic Idealize.ShloMosaic.ValueIdx

variable {α : Type}

/-- Joined along the columns: a column of the first piece. -/
theorem concat_cols_left {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin n) (hk : k.val < c) :
    concatenate (⟨2, ![a, c]⟩ : Shape) 1 [⟨⟨2, ![a, n]⟩, x⟩, ⟨⟨2, ![a, m]⟩, y⟩] h (ix2 p (⟨k.val, hk⟩ : Fin c)) = x (ix2 p k) :=
  concatenate_pair_apply_left (1 : Fin (⟨2, ![a, c]⟩ : Shape).rank) x y h _ rfl (ix2 p k) (fun b => by
    match b with
    | ⟨0, _⟩ => rfl
    | ⟨1, _⟩ => rfl)

/-- Joined along the columns: a column of the second piece sits the first piece's width further on. -/
theorem concat_cols_right {a n m c : ℕ} (x : (⟨2, ![a, n]⟩ : Shape).Idx → α) (y : (⟨2, ![a, m]⟩ : Shape).Idx → α)
    (h : Shape.Concatenates [(⟨2, ![a, n]⟩ : Shape), ⟨2, ![a, m]⟩] (⟨2, ![a, c]⟩ : Shape) 1)
    (p : Fin a) (k : Fin m) (hk : n + k.val < c) :
    concatenate (⟨2, ![a, c]⟩ : Shape) 1 [⟨⟨2, ![a, n]⟩, x⟩, ⟨⟨2, ![a, m]⟩, y⟩] h (ix2 p (⟨n + k.val, hk⟩ : Fin c)) = y (ix2 p k) :=
  concatenate_pair_apply_right (1 : Fin (⟨2, ![a, c]⟩ : Shape).rank) x y h _ rfl rfl (ix2 p k) (fun b hb => by
    match b with
    | ⟨0, _⟩ => rfl
    | ⟨1, _⟩ => exact absurd rfl hb) (by show k.val + n = n + k.val; omega)

/-- Joined along the rows: a row of the first piece. -/
theorem concat_rows_top {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin n) (hk : k.val < c) (q : Fin b) :
    concatenate (⟨2, ![c, b]⟩ : Shape) 0 [⟨⟨2, ![n, b]⟩, x⟩, ⟨⟨2, ![m, b]⟩, y⟩] h (ix2 (⟨k.val, hk⟩ : Fin c) q) = x (ix2 k q) :=
  concatenate_pair_apply_left (0 : Fin (⟨2, ![c, b]⟩ : Shape).rank) x y h _ rfl (ix2 k q) (fun d => by
    match d with
    | ⟨0, _⟩ => rfl
    | ⟨1, _⟩ => rfl)

/-- Joined along the rows: a row of the second piece sits the first piece's height further down. -/
theorem concat_rows_bottom {n m c b : ℕ} (x : (⟨2, ![n, b]⟩ : Shape).Idx → α) (y : (⟨2, ![m, b]⟩ : Shape).Idx → α)
    (h : Shape.Concatenates [(⟨2, ![n, b]⟩ : Shape), ⟨2, ![m, b]⟩] (⟨2, ![c, b]⟩ : Shape) 0)
    (k : Fin m) (hk : n + k.val < c) (q : Fin b) :
    concatenate (⟨2, ![c, b]⟩ : Shape) 0 [⟨⟨2, ![n, b]⟩, x⟩, ⟨⟨2, ![m, b]⟩, y⟩] h (ix2 (⟨n + k.val, hk⟩ : Fin c) q) = y (ix2 k q) :=
  concatenate_pair_apply_right (0 : Fin (⟨2, ![c, b]⟩ : Shape).rank) x y h _ rfl rfl (ix2 k q) (fun d hd => by
    match d with
    | ⟨0, _⟩ => exact absurd rfl hd
    | ⟨1, _⟩ => rfl) (by show k.val + n = n + k.val; omega)

/-- A sum over `c = n + n` positions is the sum over the first `n` plus the sum over the last `n`. -/
theorem sum_two_halves {M : Type*} [AddCommMonoid M] {n c : ℕ} (hc : c = n + n) (f : Fin c → M) :
    ∑ q : Fin c, f q
      = ∑ k : Fin n, f ⟨k.val, by have := k.isLt; omega⟩ + ∑ k : Fin n, f ⟨n + k.val, by have := k.isLt; omega⟩ := by
  subst hc
  rw [Fin.sum_univ_add]
  rfl

end Cert.LibConcat2

end
-- ==== Proof.Bridge.lean ====
/-
  The two halves of the 128-wide aggregation are the reference's two results.

  The kernel program joins the two second-layer weights `x4 | x6` along their columns and the two biases `x5 | x7`,
  multiplies the first layer by the joined weight once, aggregates the 128-wide product over the edges once, adds the
  joined bias, and cuts the result into columns 0 … 63 and 64 … 127. The reference multiplies, aggregates and adds the
  bias twice, 64 columns wide. Entry `(n, c)` of an aggregation is

      (0 + the sum over the edges landing on n of product (source, c) · weight) + bias c,

  which reads only column `c` of the product and entry `c` of the bias; and column `c` of a product reads only column `c`
  of its right operand. So column `c` (resp. `64 + c`) of the wide result is column `c` of the reference's first
  (resp. second) result. The edges, their weights and the first layer are the same terms on both sides. No law of
  arithmetic beyond the definitions is used: nothing here needs the inputs to be finite.
-/
import proofs.«161204_j43722767073850_2_alg».proof.Proof.HostStretch
import proofs.«161204_j43722767073850_2_alg».proof.Proof.RefReadPatched
import proofs.«161204_j43722767073850_2_alg».proof.Proof.LibGraphAggregate
import proofs.«161204_j43722767073850_2_alg».proof.Proof.LibConcat2
import proofs.«161204_j43722767073850_2_alg».proof.Proof.LibMatProd
import proofs.«161204_j43722767073850_2_alg».proof.Proof.LibPlainDot

noncomputable section

namespace Cert.KernelIdeal.Halves

open Idealize.ShloMosaic Idealize.ShloMosaic.TcCoe Idealize.ShloMosaic.ValueIdx
open Idealize.ShloMosaic.GraphAggregate Idealize.ShloMosaic.SegmentSum
open Cert.KernelIdeal Cert.KernelIdeal.Gen Cert.LibMatProd

open Cert.ReferenceIdeal.ReadP

/-- The left result. Column `c` of the 128-wide aggregation is column `c` of the reference's 64-wide aggregation
    with the first pair of weight and bias: the two sum over the same edges, column `c` of the joined weight is column `c`
    of `x4`, and entry `c` of the joined bias is entry `c` of `x5`. -/
theorem left_half
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) :
    extractStridedSlice S100000x64 ![0, 0]
        (Host.wideLayer (F := Ideal) (val_main_v3 (F := Ideal) x1) (val_main_v6 (F := Ideal) x1) (val_main_v29 (F := Ideal) x1)
          (mm (val_main_v47 (F := Ideal) x0 x1 x2 x3)
            (concatenate S128x128 1 [⟨S128x64, x4⟩, ⟨S128x64, x6⟩] concatenates_S128x64_S128x64_S128x128_d1))
          (concatenate S128 0 [⟨S64, x5⟩, ⟨S64, x7⟩] concatenates_S64_S64_S128_d0))
        slices_S100000x128_S100000x64_0_0
      = val_main_v64 (F := Ideal) x0 x1 x2 x3 x4 x5 := by
  funext i
  obtain ⟨n, c, rfl⟩ : ∃ (n : Fin 100000) (c : Fin 64), i = ix2 n c := ⟨i 0, i 1, eq_ix2 i⟩
  have hc : c.val < 128 := by have := c.isLt; omega
  -- the slice reads column `c` of the wide array
  rw [extractStridedSlice_apply ![0, 0] _ slices_S100000x128_S100000x64_0_0 (ix2 n c) (ix2 n (⟨c.val, hc⟩ : Fin 128)) (fun a => by
    match a with
    | ⟨0, _⟩ => show n.val = 0 + n.val; omega
    | ⟨1, _⟩ => show c.val = 0 + c.val; omega)]
  -- both sides are aggregations over the same edges
  refine (show Host.wideLayer (F := Ideal) _ _ _ _ _ (ix2 n (⟨c.val, hc⟩ : Fin 128)) = _ from
    aggregate_apply (N := 100000) (E := 1700000) (C := 128) (by decide)
      scatter_S100000x128_S1700000x1_S1700000x128_1_0_0_1.wf gather_S100000x128_S1700000x1_S1700000x128_1_0_n_n_0_1_1128.wf
      bcast_S_S100000x128 bcast_S1700000_S1700000x1_0 bcast_S1700000x1_S1700000x128_0_1 bcast_S128_S1x128_1 bcast_S1x128_S100000x128_0_1
      _ _ _ _ (constant S_ .f32 0x00000000#32) _ n ⟨c.val, hc⟩).trans ?_
  refine Eq.trans ?_ (show val_main_v64 (F := Ideal) x0 x1 x2 x3 x4 x5 (ix2 n c) = _ from
    aggregate_apply (N := 100000) (E := 1700000) (C := 64) (by decide)
      Cert.ReferenceIdeal.scatter_S100000x64_S1700000x1_S1700000x64_1_0_0_1.wf
      Cert.ReferenceIdeal.gather_S100000x64_S1700000x1_S1700000x64_1_0_n_n_0_1_164.wf
      Cert.ReferenceIdeal.Gen.bcast_S_S100000x64 Cert.ReferenceIdeal.Gen.bcast_S1700000_S1700000x1_0
      Cert.ReferenceIdeal.Gen.bcast_S1700000x1_S1700000x64_0_1 Cert.ReferenceIdeal.Gen.bcast_S64_S1x64_1
      Cert.ReferenceIdeal.Gen.bcast_S1x64_S100000x64_0_1
      (val_main_v48 (F := Ideal) x0 x1 x2 x3 x4) (val_main_v54 (F := Ideal) x1) (val_main_v60 (F := Ideal) x1) (val_main_v29 (F := Ideal) x1)
      (constant Cert.ReferenceIdeal.S_ .f32 0x00000000#32) x5 n c).symm
  refine aggregateAt_congr (by decide) _ _ _ _ _ _ _ _ n ⟨c.val, hc⟩ c (fun r => ?_) ?_
  · -- the products: column `c` of the joined weight is column `c` of `x4`
    rw [show val_main_v48 (F := Ideal) x0 x1 x2 x3 x4 = mm (val_main_v47 (F := Ideal) x0 x1 x2 x3) x4 from
      hostDot_eq Cert.ReferenceIdeal.dot_S100000x128_S128x64_S100000x64_1_0_0_1_n_n
        (Cert.LibPlainDot.contr_rank _ rfl) (Cert.LibPlainDot.contr_size _ rfl)
        (Cert.LibPlainDot.lhs_row _ rfl rfl) (Cert.LibPlainDot.lhs_col _ rfl)
        (Cert.LibPlainDot.rhs_row _ rfl rfl) (Cert.LibPlainDot.rhs_col _ rfl rfl rfl rfl) none _ x4]
    rw [mm_ix2, mm_ix2]
    refine Finset.sum_congr rfl fun q _ => ?_
    rw [Cert.LibConcat2.concat_cols_left x4 x6 concatenates_S128x64_S128x64_S128x128_d1 q c hc]
  · -- the biases: entry `c` of the joined bias is entry `c` of `x5`
    exact concatenate_pair_apply_left (0 : Fin S128.rank) x5 x7 concatenates_S64_S64_S128_d0 (ix1 (⟨c.val, hc⟩ : Fin 128)) rfl (ix1 c)
      (fun b => by match b with | ⟨0, _⟩ => rfl)

/-- The right result. Column `64 + c` of the 128-wide aggregation is column `c` of the reference's 64-wide aggregation
    with the second pair of weight and bias: the two sum over the same edges, column `64 + c` of the joined weight is column `c`
    of `x6`, and entry `64 + c` of the joined bias is entry `c` of `x7`. -/
theorem right_half
    (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S64, .f32⟩ : BufTy).Contents (Elt Ideal)) :
    extractStridedSlice S100000x64 ![0, 64]
        (Host.wideLayer (F := Ideal) (val_main_v3 (F := Ideal) x1) (val_main_v6 (F := Ideal) x1) (val_main_v29 (F := Ideal) x1)
          (mm (val_main_v47 (F := Ideal) x0 x1 x2 x3)
            (concatenate S128x128 1 [⟨S128x64, x4⟩, ⟨S128x64, x6⟩] concatenates_S128x64_S128x64_S128x128_d1))
          (concatenate S128 0 [⟨S64, x5⟩, ⟨S64, x7⟩] concatenates_S64_S64_S128_d0))
        slices_S100000x128_S100000x64_0_64
      = val_main_v81 (F := Ideal) x0 x1 x2 x3 x6 x7 := by
  funext i
  obtain ⟨n, c, rfl⟩ : ∃ (n : Fin 100000) (c : Fin 64), i = ix2 n c := ⟨i 0, i 1, eq_ix2 i⟩
  have hc : 64 + c.val < 128 := by have := c.isLt; omega
  -- the slice reads column `64 + c` of the wide array
  rw [extractStridedSlice_apply ![0, 64] _ slices_S100000x128_S100000x64_0_64 (ix2 n c) (ix2 n (⟨64 + c.val, hc⟩ : Fin 128)) (fun a => by
    match a with
    | ⟨0, _⟩ => show n.val = 0 + n.val; omega
    | ⟨1, _⟩ => show 64 + c.val = 64 + c.val; rfl)]
  -- both sides are aggregations over the same edges
  refine (show Host.wideLayer (F := Ideal) _ _ _ _ _ (ix2 n (⟨64 + c.val, hc⟩ : Fin 128)) = _ from
    aggregate_apply (N := 100000) (E := 1700000) (C := 128) (by decide)
      scatter_S100000x128_S1700000x1_S1700000x128_1_0_0_1.wf gather_S100000x128_S1700000x1_S1700000x128_1_0_n_n_0_1_1128.wf
      bcast_S_S100000x128 bcast_S1700000_S1700000x1_0 bcast_S1700000x1_S1700000x128_0_1 bcast_S128_S1x128_1 bcast_S1x128_S100000x128_0_1
      _ _ _ _ (constant S_ .f32 0x00000000#32) _ n ⟨64 + c.val, hc⟩).trans ?_
  refine Eq.trans ?_ (show val_main_v81 (F := Ideal) x0 x1 x2 x3 x6 x7 (ix2 n c) = _ from
    aggregate_apply (N := 100000) (E := 1700000) (C := 64) (by decide)
      Cert.ReferenceIdeal.scatter_S100000x64_S1700000x1_S1700000x64_1_0_0_1.wf
      Cert.ReferenceIdeal.gather_S100000x64_S1700000x1_S1700000x64_1_0_n_n_0_1_164.wf
      Cert.ReferenceIdeal.Gen.bcast_S_S100000x64 Cert.ReferenceIdeal.Gen.bcast_S1700000_S1700000x1_0
      Cert.ReferenceIdeal.Gen.bcast_S1700000x1_S1700000x64_0_1 Cert.ReferenceIdeal.Gen.bcast_S64_S1x64_1
      Cert.ReferenceIdeal.Gen.bcast_S1x64_S100000x64_0_1
      (val_main_v65 (F := Ideal) x0 x1 x2 x3 x6) (val_main_v71 (F := Ideal) x1) (val_main_v77 (F := Ideal) x1) (val_main_v29 (F := Ideal) x1)
      (constant Cert.ReferenceIdeal.S_ .f32 0x00000000#32) x7 n c).symm
  refine aggregateAt_congr (by decide) _ _ _ _ _ _ _ _ n ⟨64 + c.val, hc⟩ c (fun r => ?_) ?_
  · -- the products: column `64 + c` of the joined weight is column `c` of `x6`
    rw [show val_main_v65 (F := Ideal) x0 x1 x2 x3 x6 = mm (val_main_v47 (F := Ideal) x0 x1 x2 x3) x6 from
      hostDot_eq Cert.ReferenceIdeal.dot_S100000x128_S128x64_S100000x64_1_0_0_1_n_n
        (Cert.LibPlainDot.contr_rank _ rfl) (Cert.LibPlainDot.contr_size _ rfl)
        (Cert.LibPlainDot.lhs_row _ rfl rfl) (Cert.LibPlainDot.lhs_col _ rfl)
        (Cert.LibPlainDot.rhs_row _ rfl rfl) (Cert.LibPlainDot.rhs_col _ rfl rfl rfl rfl) none _ x6]
    rw [mm_ix2, mm_ix2]
    refine Finset.sum_congr rfl fun q _ => ?_
    rw [Cert.LibConcat2.concat_cols_right x4 x6 concatenates_S128x64_S128x64_S128x128_d1 q c hc]
  · -- the biases: entry `64 + c` of the joined bias is entry `c` of `x7`
    exact concatenate_pair_apply_right (0 : Fin S128.rank) x5 x7 concatenates_S64_S64_S128_d0 (ix1 (⟨64 + c.val, hc⟩ : Fin 128)) rfl rfl (ix1 c)
      (fun b hb => absurd (Subsingleton.elim _ _) hb) (by show c.val + 64 = 64 + c.val; omega)

end Cert.KernelIdeal.Halves

end
-- ==== Proof.lean ====
/-
  Two layers of a graph convolution with self-loops over 100000 nodes and 1600000 edges, the second layer producing a
  mean and a log-deviation of 64 columns each.

  With `src`, `dst` the edge lists followed by one self-loop per node, `deg` the number of edges landing on each node,
  `dinv = deg^(-1/2)` where `deg > 0` and `0` elsewhere, and `norm_e = dinv[src_e] · dinv[dst_e]`, one layer of weight `W`
  and bias `b` sends an array `x` to

      out[n, c] = (0 + the sum over the edges e with dst_e = n of (x · W)[src_e, c] · norm_e) + b[c].

  Both programs compute `relu` of the layer `(W1, b1)` of the input and then the layers `(W_mu, b_mu)` and
  `(W_ls, b_ls)` of that. The reference computes each product on the host and runs the second stage twice, 64 columns
  wide. The kernel program computes the products in two regions — ten blocks of 10000 rows each, operands narrowed to a
  shorter float format, the matrix unit started from a zero accumulator — and runs the second stage once, 128 columns
  wide, on the two weights joined along their columns and the two biases joined, cutting the result in two.

  On the extended reals a change of float format is the identity and a product into a zero accumulator is the plain
  sum of products, so each region leaves the product of its two operand arrays (a block of rows of a product is the
  product of the block of rows; the blocks tile the rows). The edge lists, the normalisation and the first layer are
  spelt with the same host operations in both programs. Entry `(n, c)` of a layer reads only column `c` of its product
  and entry `c` of its bias, and column `c` of a product only column `c` of the weight: so column `c` of the 128-wide
  result is column `c` of the reference's mean and column `64 + c` is column `c` of its log-deviation. The two sides
  are entry by entry the same sums of the same terms; no distributive law is used, so the inputs' finiteness is not.

  The idealized kernel program is the printed one read at the extended reals (the ledger of rewrites is empty).
-/
import proofs.«161204_j43722767073850_2_alg».proof.Defs
import proofs.«161204_j43722767073850_2_alg».proof.Proof.Gen.Kernel
import proofs.«161204_j43722767073850_2_alg».proof.Proof.Gen.Kernel.Frame
import proofs.«161204_j43722767073850_2_alg».proof.Proof.Gen.KernelIdeal
import proofs.«161204_j43722767073850_2_alg».proof.Proof.Gen.KernelIdeal.Frame
import proofs.«161204_j43722767073850_2_alg».proof.Proof.Gen.ReferenceIdeal
import proofs.«161204_j43722767073850_2_alg».proof.Proof.Gen.Pre_finite_inputs
import proofs.«161204_j43722767073850_2_alg».proof.Proof.RefReadPatched
import proofs.«161204_j43722767073850_2_alg».proof.Proof.KernelValue
import proofs.«161204_j43722767073850_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Gen.frame m ρ

/-- So does the same program read at the extended reals. -/
theorem frame_kernelIdeal : Cert.frame_KernelIdeal := fun m ρ _ => Cert.KernelIdeal.Gen.frame m ρ

/-- The reference runs and leaves its arguments as launched: its run, with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs run, and the kernel program's two results — the left and
    right halves of its 128-wide second stage — are the reference's mean and log-deviation. -/
theorem algebraic : Cert.algebraic_KernelIdeal_ReferenceIdeal := by
  intro m ρ m' ρ' _ hagree
  refine ⟨fun c => Cert.KernelIdeal.Gen.W9 m ρ c (Proc.devRef .tc Cert.KernelIdeal.main_v67),
    fun c => Cert.KernelIdeal.Gen.W9 m ρ c (Proc.devRef .tc Cert.KernelIdeal.main_v68),
    Cert.KernelIdeal.Results.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨a0, a1, a2, a3, a4, a5, a6, a7⟩ := hagree c
    rw [Cert.ReferenceIdeal.ReadP.val_main_v64_eq, a0, a1, a2, a3, a4, a5]
    refine Eq.symm ((Cert.KernelIdeal.Results.left_result m ρ c).trans ?_)
    unfold Cert.KernelIdeal.Results.wide
    exact Cert.KernelIdeal.Halves.left_half _ _ _ _ _ _ _ _
  · obtain ⟨a0, a1, a2, a3, a4, a5, a6, a7⟩ := hagree c
    rw [Cert.ReferenceIdeal.ReadP.val_main_v81_eq, a0, a1, a2, a3, a6, a7]
    refine Eq.symm ((Cert.KernelIdeal.Results.right_result m ρ c).trans ?_)
    unfold Cert.KernelIdeal.Results.wide
    exact Cert.KernelIdeal.Halves.right_half _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
